-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  main_v3
-- ==== Kernel.lean ====
abbrev S32x1024x1024 : Shape := ⟨3, ![32, 1024, 1024]⟩
abbrev S1x1024x1024 : Shape := ⟨3, ![1, 1024, 1024]⟩
abbrev S1x1024x128 : Shape := ⟨3, ![1, 1024, 128]⟩
abbrev S1x1024x1152 : Shape := ⟨3, ![1, 1024, 1152]⟩
abbrev S1x8x1024 : Shape := ⟨3, ![1, 8, 1024]⟩
abbrev S1x1032x1024 : Shape := ⟨3, ![1, 1032, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  concatenates_S1x1024x1024_S1x1024x128_S1x1024x1152_d2 : Shape.Concatenates [S1x1024x1024, S1x1024x128] S1x1024x1152 2
  slices_S1x1024x1152_o0_0_0_S1x1024x1024 : S1x1024x1152.Slices ![0, 0, 0] S1x1024x1024
  slices_S1x1024x1152_o0_0_1_S1x1024x1024 : S1x1024x1152.Slices ![0, 0, 1] S1x1024x1024
  slices_S1x1024x1152_o0_0_2_S1x1024x1024 : S1x1024x1152.Slices ![0, 0, 2] S1x1024x1024
  slices_S1x1024x1152_o0_0_3_S1x1024x1024 : S1x1024x1152.Slices ![0, 0, 3] S1x1024x1024
  slices_S1x1024x1152_o0_0_4_S1x1024x1024 : S1x1024x1152.Slices ![0, 0, 4] S1x1024x1024
  concatenates_S1x1024x1024_S1x8x1024_S1x1032x1024_d1 : Shape.Concatenates [S1x1024x1024, S1x8x1024] S1x1032x1024 1
  slices_S1x1032x1024_o0_0_0_S1x1024x1024 : S1x1032x1024.Slices ![0, 0, 0] S1x1024x1024
  slices_S1x1032x1024_o0_1_0_S1x1024x1024 : S1x1032x1024.Slices ![0, 1, 0] S1x1024x1024
  slices_S1x1032x1024_o0_2_0_S1x1024x1024 : S1x1032x1024.Slices ![0, 2, 0] S1x1024x1024
  slices_S1x1032x1024_o0_3_0_S1x1024x1024 : S1x1032x1024.Slices ![0, 3, 0] S1x1024x1024
  slices_S1x1032x1024_o0_4_0_S1x1024x1024 : S1x1032x1024.Slices ![0, 4, 0] S1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S_ : Shape := ⟨0, ![]⟩
abbrev S32x1025x1025 : Shape := ⟨3, ![32, 1025, 1025]⟩

abbrev nBuf : Space → Nat
  | .hbm => 79
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S_, .i32⟩
  | .hbm, ⟨2, _⟩ => ⟨S_, .f32⟩
  | .hbm, ⟨3, _⟩ => ⟨S32x1025x1025, .f32⟩
  | .hbm, ⟨4, _⟩ => ⟨S32x1024x1024, .f32⟩
  | .hbm, ⟨5, _⟩ => ⟨S32x1024x1024, .f32⟩
  | .hbm, ⟨6, _⟩ => ⟨S_, .f32⟩
  | .hbm, ⟨7, _⟩ => ⟨S32x1024x1024, .f32⟩
  | .hbm, ⟨8, _⟩ => ⟨S32x1024x1024, .f32⟩
  | .hbm, ⟨9, _⟩ => ⟨S32x1024x1024, .f32⟩
  | .hbm, ⟨10, _⟩ => ⟨S32x1024x1024, .f32⟩
  | .hbm, ⟨11, _⟩ => ⟨S_, .f32⟩
  | .hbm, ⟨12, _⟩ => ⟨S32x1024x1024, .f32⟩
  | .hbm, ⟨13, _⟩ => ⟨S32x1024x1024, .f32⟩
  | .hbm, ⟨14, _⟩ => ⟨S32x1024x1024, .f32⟩
  | .hbm, ⟨15, _⟩ => ⟨S32x1024x1024, .f32⟩
  | .hbm, ⟨16, _⟩ => ⟨S_, .f32⟩
  | .hbm, ⟨17, _⟩ => ⟨S32x1024x1024, .f32⟩
  | .hbm, ⟨18, _⟩ => ⟨S32x1024x1024, .f32⟩
  | .hbm, ⟨19, _⟩ => ⟨S32x1024x1024, .f32⟩
  | .hbm, ⟨20, _⟩ => ⟨S32x1024x1024, .f32⟩
  | .hbm, ⟨21, _⟩ => ⟨S_, .i32⟩
  | .hbm, ⟨22, _⟩ => ⟨S_, .f32⟩
  | .hbm, ⟨23, _⟩ => ⟨S32x1025x1025, .f32⟩
  | .hbm, ⟨24, _⟩ => ⟨S32x1024x1024, .f32⟩
  | .hbm, ⟨25, _⟩ => ⟨S32x1024x1024, .f32⟩
  | .hbm, ⟨26, _⟩ => ⟨S_, .f32⟩
  | .hbm, ⟨27, _⟩ => ⟨S32x1024x1024, .f32⟩
  | .hbm, ⟨28, _⟩ => ⟨S32x1024x1024, .f32⟩
  | .hbm, ⟨29, _⟩ => ⟨S32x1024x1024, .f32⟩
  | .hbm, ⟨30, _⟩ => ⟨S32x1024x1024, .f32⟩
  | .hbm, ⟨31, _⟩ => ⟨S_, .f32⟩
  | .hbm, ⟨32, _⟩ => ⟨S32x1024x1024, .f32⟩
  | .hbm, ⟨33, _⟩ => ⟨S32x1024x1024, .f32⟩
  | .hbm, ⟨34, _⟩ => ⟨S32x1024x1024, .f32⟩
  | .hbm, ⟨35, _⟩ => ⟨S32x1024x1024, .f32⟩
  | .hbm, ⟨36, _⟩ => ⟨S_, .f32⟩
  | .hbm, ⟨37, _⟩ => ⟨S32x1024x1024, .f32⟩
  | .hbm, ⟨38, _⟩ => ⟨S32x1024x1024, .f32⟩
  | .hbm, ⟨39, _⟩ => ⟨S32x1024x1024, .f32⟩
  | .hbm, ⟨40, _⟩ => ⟨S_, .i32⟩
  | .hbm, ⟨41, _⟩ => ⟨S_, .f32⟩
  | .hbm, ⟨42, _⟩ => ⟨S32x1025x1025, .f32⟩
  | .hbm, ⟨43, _⟩ => ⟨S32x1024x1024, .f32⟩
  | .hbm, ⟨44, _⟩ => ⟨S32x1024x1024, .f32⟩
  | .hbm, ⟨45, _⟩ => ⟨S_, .f32⟩
  | .hbm, ⟨46, _⟩ => ⟨S32x1024x1024, .f32⟩
  | .hbm, ⟨47, _⟩ => ⟨S32x1024x1024, .f32⟩
  | .hbm, ⟨48, _⟩ => ⟨S32x1024x1024, .f32⟩
  | .hbm, ⟨49, _⟩ => ⟨S32x1024x1024, .f32⟩
  | .hbm, ⟨50, _⟩ => ⟨S_, .f32⟩
  | .hbm, ⟨51, _⟩ => ⟨S32x1024x1024, .f32⟩
  | .hbm, ⟨52, _⟩ => ⟨S32x1024x1024, .f32⟩
  | .hbm, ⟨53, _⟩ => ⟨S32x1024x1024, .f32⟩
  | .hbm, ⟨54, _⟩ => ⟨S32x1024x1024, .f32⟩
  | .hbm, ⟨55, _⟩ => ⟨S_, .f32⟩
  | .hbm, ⟨56, _⟩ => ⟨S32x1024x1024, .f32⟩
  | .hbm, ⟨57, _⟩ => ⟨S32x1024x1024, .f32⟩
  | .hbm, ⟨58, _⟩ => ⟨S32x1024x1024, .f32⟩
  | .hbm, ⟨59, _⟩ => ⟨S32x1024x1024, .f32⟩
  | .hbm, ⟨60, _⟩ => ⟨S_, .i32⟩
  | .hbm, ⟨61, _⟩ => ⟨S_, .f32⟩
  | .hbm, ⟨62, _⟩ => ⟨S32x1025x1025, .f32⟩
  | .hbm, ⟨63, _⟩ => ⟨S32x1024x1024, .f32⟩
  | .hbm, ⟨64, _⟩ => ⟨S32x1024x1024, .f32⟩
  | .hbm, ⟨65, _⟩ => ⟨S_, .f32⟩
  | .hbm, ⟨66, _⟩ => ⟨S32x1024x1024, .f32⟩
  | .hbm, ⟨67, _⟩ => ⟨S32x1024x1024, .f32⟩
  | .hbm, ⟨68, _⟩ => ⟨S32x1024x1024, .f32⟩
  | .hbm, ⟨69, _⟩ => ⟨S32x1024x1024, .f32⟩
  | .hbm, ⟨70, _⟩ => ⟨S_, .f32⟩
  | .hbm, ⟨71, _⟩ => ⟨S32x1024x1024, .f32⟩
  | .hbm, ⟨72, _⟩ => ⟨S32x1024x1024, .f32⟩
  | .hbm, ⟨73, _⟩ => ⟨S32x1024x1024, .f32⟩
  | .hbm, ⟨74, _⟩ => ⟨S32x1024x1024, .f32⟩
  | .hbm, ⟨75, _⟩ => ⟨S_, .f32⟩
  | .hbm, ⟨76, _⟩ => ⟨S32x1024x1024, .f32⟩
  | .hbm, ⟨77, _⟩ => ⟨S32x1024x1024, .f32⟩
  | .hbm, ⟨78, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_call2_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_10 : Ref sig .tc := ⟨.hbm, 60, rfl⟩
abbrev main_call3_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  pads_S32x1024x1024_S32x1025x1025_000_010_010 : S32x1024x1024.Pads (![0, 0, 0] : Fin 3 → Nat) ![0, 1, 1] ![0, 0, 0] S32x1025x1025
  h_S_ : 0 < S_.numel
  slices_S32x1025x1025_S32x1024x1024_0_0_0 : S32x1025x1025.Slices ![0, 0, 0] S32x1024x1024
  slices_S32x1025x1025_S32x1024x1024_0_0_1 : S32x1025x1025.Slices ![0, 0, 1] S32x1024x1024
  bcast_S_S32x1024x1024 : S_.BroadcastsInDim S32x1024x1024 (![] : Fin 0 → Fin S32x1024x1024.rank)
  slices_S32x1025x1025_S32x1024x1024_0_1_0 : S32x1025x1025.Slices ![0, 1, 0] S32x1024x1024
  slices_S32x1025x1025_S32x1024x1024_0_1_1 : S32x1025x1025.Slices ![0, 1, 1] S32x1024x1024

variable [Facts₀]

class Facts : Prop extends Facts₀ where

variable [Facts]
-- ==== Proof.Stencil.lean ====
/-
  The mathematics of the certificate, over real arrays indexed by three natural numbers (image, row, column) that
  vanish outside the 1024 × 1024 picture (`Supp`), so that "pad with zeros, then shift" is just "read one further".

  One stencil step `St` replaces the entry at (i, j) by  a(i,j) + ½ a(i,j+1) + ½ a(i+1,j) + ¼ a(i+1,j+1),
  which is (1 + ½ R)(1 + ½ D) applied to the picture, R and D the shifts by one column and by one row.
  The reference applies it four times, reversing the order of the 32 images after the first and after the third
  step (`Rv`); a step acts on each image separately, so the two reversals meet and cancel, and the four steps are
  (1 + ½ R)⁴ (1 + ½ D)⁴.  The kernel applies exactly that product: first the five-tap row filter `Wp` with the
  weights 1, 2, 3/2, 1/2, 1/16 — the binomial numbers C(4,k) / 2^k — along the columns, then the same five taps
  `Hp` along the rows.  `steps_eq_taps` is the identity between the two, entry by entry.
-/
import Mathlib.Data.Real.Basic
import Mathlib.Tactic.Ring
import Mathlib.Tactic.NormNum

noncomputable section

namespace Cert.Stencil

/-- One 2 × 2 stencil step: each entry plus half its right neighbour, half its lower neighbour and a quarter of
    its lower-right neighbour, summed in that order. -/
def St (A : ℕ → ℕ → ℕ → ℝ) : ℕ → ℕ → ℕ → ℝ := fun n i j =>
  A n i j + 1 / 2 * A n i (j + 1) + 1 / 2 * A n (i + 1) j + 1 / 4 * A n (i + 1) (j + 1)

/-- The 32 images in reverse order. -/
def Rv (A : ℕ → ℕ → ℕ → ℝ) : ℕ → ℕ → ℕ → ℝ := fun n i j => A (32 - (n + 1)) i j

/-- The five-tap filter along a row: the entries 0 … 4 columns to the right with the weights 1, 2, 3/2, 1/2, 1/16. -/
def Wp (B : ℕ → ℕ → ℕ → ℝ) : ℕ → ℕ → ℕ → ℝ := fun n i j =>
  B n i j + 2 * B n i (j + 1) + 3 / 2 * B n i (j + 2) + 1 / 2 * B n i (j + 3) + 1 / 16 * B n i (j + 4)

/-- The same five taps down a column. -/
def Hp (T : ℕ → ℕ → ℕ → ℝ) : ℕ → ℕ → ℕ → ℝ := fun n i j =>
  T n i j + 2 * T n (i + 1) j + 3 / 2 * T n (i + 2) j + 1 / 2 * T n (i + 3) j + 1 / 16 * T n (i + 4) j

/-- The array vanishes from row 1024 on and from column 1024 on. -/
def Supp (A : ℕ → ℕ → ℕ → ℝ) : Prop := ∀ n i j, (1024 ≤ i ∨ 1024 ≤ j) → A n i j = 0

/-- A stencil step only reads entries further right and further down, so it keeps the array zero outside the picture. -/
theorem St_supp {A : ℕ → ℕ → ℕ → ℝ} (h : Supp A) : Supp (St A) := by
  intro n i j hij
  have h1 : A n i j = 0 := h n i j hij
  have h2 : A n i (j + 1) = 0 := h n i (j + 1) (by omega)
  have h3 : A n (i + 1) j = 0 := h n (i + 1) j (by omega)
  have h4 : A n (i + 1) (j + 1) = 0 := h n (i + 1) (j + 1) (by omega)
  simp only [St, h1, h2, h3, h4]; norm_num

/-- Reversing the images moves no row and no column. -/
theorem Rv_supp {A : ℕ → ℕ → ℕ → ℝ} (h : Supp A) : Supp (Rv A) := fun n i j hij => h _ i j hij

/-- The row filter reads only its own row, so below the picture it is zero. -/
theorem Wp_rows {B : ℕ → ℕ → ℕ → ℝ} (h : Supp B) (n i j : ℕ) (hi : 1024 ≤ i) : Wp B n i j = 0 := by
  simp only [Wp, h n i j (Or.inl hi), h n i (j + 1) (Or.inl hi), h n i (j + 2) (Or.inl hi), h n i (j + 3) (Or.inl hi),
    h n i (j + 4) (Or.inl hi)]
  norm_num

/-- Four stencil steps with the images reversed after the first and after the third are the two five-tap filters:
    (1 + ½ R)⁴ (1 + ½ D)⁴ expanded by the binomial theorem, the reversals cancelling. -/
theorem steps_eq_taps (A : ℕ → ℕ → ℕ → ℝ) (n i j : ℕ) (hn : n < 32) :
    St (Rv (St (St (Rv (St A))))) n i j = Hp (Wp A) n i j := by
  have hrev : 32 - (32 - (n + 1) + 1) = n := by omega
  simp only [St, Rv, Hp, Wp, hrev, Nat.add_assoc, Nat.reduceAdd]
  ring

end Cert.Stencil

end
-- ==== Proof.Rep.lean ====
/-
  How an array of extended reals "is" a real array: `Rep a A` says that entry (p, q, r) of the rank-three array `a`
  is the real number `A p q r`, the real array indexed by plain natural numbers so that "one column further" is
  `j + 1` with no bound to carry.  An array all of whose entries are real numbers is represented by its real parts,
  continued by zero outside its extents (`realPart`, `rep_realPart`, `realPart_supp`).
-/
import Idealize.ShloMosaic.Lib.ValueIdx
import proofs.«157636_j52261162058495_2_alg».proof.Proof.Stencil

noncomputable section

namespace Cert.Stencil

open Idealize.ShloMosaic Idealize.ShloMosaic.ValueIdx

/-- Entry (p, q, r) of `a` is the real number `A p q r`. -/
def Rep {n0 n1 n2 : ℕ} (a : (⟨3, ![n0, n1, n2]⟩ : Shape).Idx → EReal) (A : ℕ → ℕ → ℕ → ℝ) : Prop :=
  ∀ (p : Fin n0) (q : Fin n1) (r : Fin n2), a (ix3 p q r) = ((A p.val q.val r.val : ℝ) : EReal)

/-- The real parts of a 32 × 1024 × 1024 array, zero outside it. -/
def realPart (x : (⟨3, ![32, 1024, 1024]⟩ : Shape).Idx → EReal) : ℕ → ℕ → ℕ → ℝ := fun n i j =>
  if h : n < 32 ∧ i < 1024 ∧ j < 1024 then (x (ix3 ⟨n, h.1⟩ ⟨i, h.2.1⟩ ⟨j, h.2.2⟩)).toReal else 0

/-- The real parts vanish outside the picture. -/
theorem realPart_supp (x : (⟨3, ![32, 1024, 1024]⟩ : Shape).Idx → EReal) : Supp (realPart x) := by
  intro n i j hij
  unfold realPart
  rw [dif_neg (by omega)]

/-- An array of real numbers is represented by its real parts. -/
theorem rep_realPart (x : (⟨3, ![32, 1024, 1024]⟩ : Shape).Idx → EReal) (hx : ∀ i, ∃ r : ℝ, x i = (r : EReal)) :
    Rep x (realPart x) := by
  intro p q r
  obtain ⟨v, hv⟩ := hx (ix3 p q r)
  unfold realPart
  rw [dif_pos ⟨p.isLt, q.isLt, r.isLt⟩]
  show x (ix3 p q r) = (((x (ix3 p q r)).toReal : ℝ) : EReal)
  rw [hv, EReal.toReal_coe]

end Cert.Stencil

end
-- ==== Proof.Finite.lean ====
/-
  What the precondition says of the input: `finite_inputs` is "every entry's absolute value is below +∞", one
  conjunction over all entries; when it holds every entry is a real number — neither +∞ nor −∞.
-/
import proofs.«157636_j52261162058495_2_alg».proof.Pre_finite_inputs
import Idealize.ShloMosaic.Lib.ReduceAll
import Idealize.ShloMosaic.Lib.Pipeline.Value
import Idealize.ShloMosaic.Lib.ValueIdx

noncomputable section

namespace Cert.Stencil

open Idealize.ShloMosaic Idealize.ShloMosaic.ValueIdx

instance : Subsingleton Cert.Pre_finite_inputs.S_.Idx := ⟨fun a b => funext fun d => d.elim0⟩

/-- The pattern of +∞ denotes +∞. -/
theorem ofBits_inf : Ideal.ofBits .f32 0x7F800000#32 = (⊤ : EReal) := by
  simp [Ideal.ofBits, Ideal.ieee]

/-- An extended real whose absolute value is below +∞ is a real number. -/
theorem real_of_abs_lt_top (e : EReal) (h : Ideal.cmp .olt (max e (-e)) ⊤ = 1#1) : ∃ r : ℝ, e = (r : EReal) := by
  induction e using EReal.rec with
  | bot => simp [Ideal.cmp] at h
  | top => simp [Ideal.cmp] at h
  | coe r => exact ⟨r, rfl⟩

/-- Under the precondition every entry of the input is a real number. -/
theorem real_of_pre [Cert.Pre_finite_inputs.Facts] (x : FVec Ideal Cert.Pre_finite_inputs.S32x1024x1024 .f32)
    (h : Cert.Pre_finite_inputs.fn (F := Ideal) x = fun _ => 1#1) (i : Cert.Pre_finite_inputs.S32x1024x1024.Idx) :
    ∃ r : ℝ, x i = (r : EReal) := by
  have h0 := congrFun h ix0
  dsimp only [Cert.Pre_finite_inputs.fn] at h0
  have h1 := Host.reduce_andi_all _ _ _ _ _ h0 i
  have hb : broadcastInDim Cert.Pre_finite_inputs.S32x1024x1024 ![] Cert.Pre_finite_inputs.Facts.bcast_S_S32x1024x1024
      (constant (F := Ideal) Cert.Pre_finite_inputs.S_ .f32 0x7F800000#32) i = Ideal.ofBits .f32 0x7F800000#32 :=
    broadcastInDim_apply _ Cert.Pre_finite_inputs.Facts.bcast_S_S32x1024x1024 _ i (fun a => a.elim0) (fun a => a.elim0)
  refine real_of_abs_lt_top (x i) ?_
  rw [← ofBits_inf, ← hb]
  exact h1

end Cert.Stencil

end
-- ==== Proof.Consts.lean ====
/-
  The float constants the two programs spell, as the real numbers their bit patterns denote: the reference's
  stencil weights 1/2 and 1/4, the kernel's binomial weights 2, 3/2, 1/2 and 1/16 (the numbers C(4,k) / 2^k for
  k = 1 … 4), and the zero that both programs pad with (the integer 0 converted to a float). Each is a dyadic
  rational, so its pattern denotes it exactly.
-/
import Idealize.ShloMosaic.PureOps.Ideal

noncomputable section

namespace Cert.Stencil.Consts

open Idealize.ShloMosaic

/-- The pattern of `0.5` denotes 1/2. -/
theorem ofBits_half : Ideal.ofBits .f32 0x3F000000#32 = ((1 / 2 : ℝ) : EReal) := by
  simp [Ideal.ofBits, Ideal.ieee, -EReal.coe_mul]; norm_num

/-- The pattern of `0.25` denotes 1/4. -/
theorem ofBits_quarter : Ideal.ofBits .f32 0x3E800000#32 = ((1 / 4 : ℝ) : EReal) := by
  simp [Ideal.ofBits, Ideal.ieee, -EReal.coe_mul]; norm_num

/-- The pattern of `2.0` denotes 2. -/
theorem ofBits_two : Ideal.ofBits .f32 0x40000000#32 = ((2 : ℝ) : EReal) := by
  simp [Ideal.ofBits, Ideal.ieee, -EReal.coe_mul]; norm_num

/-- The pattern of `1.5` denotes 3/2. -/
theorem ofBits_three_halves : Ideal.ofBits .f32 0x3FC00000#32 = ((3 / 2 : ℝ) : EReal) := by
  simp [Ideal.ofBits, Ideal.ieee, -EReal.coe_mul]; norm_num

/-- The pattern of `0.0625` denotes 1/16. -/
theorem ofBits_sixteenth : Ideal.ofBits .f32 0x3D800000#32 = ((1 / 16 : ℝ) : EReal) := by
  simp [Ideal.ofBits, Ideal.ieee, -EReal.coe_mul]; norm_num

/-- The integer zero, converted to a float, is the real zero. -/
theorem sitofp_zero : FloatOps.sitofp (F := Ideal) .f32 (0#32 : BitVec 32) = ((0 : ℝ) : EReal) := by
  show (((0#32 : BitVec 32).toInt : ℝ) : EReal) = _
  simp

end Cert.Stencil.Consts

end
-- ==== Proof.LibLayoutRead.lean ====
/-
  Three host and vector layout operations on rank-three arrays, read at an index given by its coordinates.

  * `pad_trailing3_apply`: a pad with no low and no interior padding reads, at (p, q, r), the operand
    at (p, q, r) when the three coordinates are inside the operand's extents, and the padding value otherwise.
  * `reverse_axis0_apply`: a reversal along the first axis reads, at (p, q, r), the operand at
    (n₀ − 1 − p, q, r).
  * `concat_axis2_apply` / `concat_axis1_apply`: a two-piece concatenation along the last (the middle) axis
    reads the first piece where that coordinate is below the first piece's extent, and the second piece, the
    coordinate moved back by that extent, from there on.
-/
import Idealize.ShloMosaic.Lib.ValueIdx
import Idealize.ShloMosaic.Lib.Pipeline.Value
import Idealize.ShloMosaic.Lib.KernelVsHost

noncomputable section

namespace Idealize.ShloMosaic.LayoutRead3

open Idealize.ShloMosaic Idealize.ShloMosaic.ValueIdx

variable {α : Type}

/-- A pad that only appends (no low padding, no interior padding), read at the index (p, q, r): the operand there if
    all three coordinates are inside the operand, the padding value if not. -/
theorem pad_trailing3_apply {n0 n1 n2 m0 m1 m2 : ℕ} (hi : Fin 3 → ℕ) (x : (⟨3, ![n0, n1, n2]⟩ : Shape).Idx → α)
    {u : Shape} (v : u.Idx → α)
    (h : (⟨3, ![n0, n1, n2]⟩ : Shape).Pads (![0, 0, 0] : Fin 3 → ℕ) hi (![0, 0, 0] : Fin 3 → ℕ) ⟨3, ![m0, m1, m2]⟩)
    (hu : 0 < u.numel) (p : Fin m0) (q : Fin m1) (r : Fin m2) :
    pad (⟨3, ![m0, m1, m2]⟩ : Shape) (![0, 0, 0] : Fin 3 → ℕ) hi (![0, 0, 0] : Fin 3 → ℕ) x v h hu (ix3 p q r)
      = if hin : p.val < n0 ∧ q.val < n1 ∧ r.val < n2 then x (ix3 ⟨p.val, hin.1⟩ ⟨q.val, hin.2.1⟩ ⟨r.val, hin.2.2⟩)
        else v (Shape.Idx.first hu) := by
  by_cases hin : p.val < n0 ∧ q.val < n1 ∧ r.val < n2
  · rw [dif_pos hin]
    refine pad_apply_of_inside _ _ _ x v h hu (ix3 p q r) _ (fun a => ?_)
    match a with
    | ⟨0, _⟩ => show p.val = 0 + p.val * (0 + 1); omega
    | ⟨1, _⟩ => show q.val = 0 + q.val * (0 + 1); omega
    | ⟨2, _⟩ => show r.val = 0 + r.val * (0 + 1); omega
  · rw [dif_neg hin]
    by_cases h0 : p.val < n0
    · by_cases h1 : q.val < n1
      · have h2 : ¬ r.val < n2 := fun h2 => hin ⟨h0, h1, h2⟩
        refine pad_apply_of_not_inside _ _ _ x v h hu (ix3 p q r) ⟨2, by show 2 < 3; omega⟩ (fun hc => h2 ?_)
        have := hc.2.2
        change (r.val - 0) / (0 + 1) < n2 at this
        simpa using this
      · refine pad_apply_of_not_inside _ _ _ x v h hu (ix3 p q r) ⟨1, by show 1 < 3; omega⟩ (fun hc => h1 ?_)
        have := hc.2.2
        change (q.val - 0) / (0 + 1) < n1 at this
        simpa using this
    · refine pad_apply_of_not_inside _ _ _ x v h hu (ix3 p q r) ⟨0, by show 0 < 3; omega⟩ (fun hc => h0 ?_)
      have := hc.2.2
      change (p.val - 0) / (0 + 1) < n0 at this
      simpa using this

/-- A reversal along the first axis, read at (p, q, r), is the operand at the mirrored first coordinate. -/
theorem reverse_axis0_apply {n0 n1 n2 : ℕ} (x : (⟨3, ![n0, n1, n2]⟩ : Shape).Idx → α) (p : Fin n0) (q : Fin n1) (r : Fin n2) :
    Host.reverse (s := (⟨3, ![n0, n1, n2]⟩ : Shape)) [(0 : Fin 3)] x (ix3 p q r) = x (ix3 p.rev q r) := by
  unfold Host.reverse
  refine congrArg x (funext fun a => ?_)
  match a with
  | ⟨0, _⟩ => rfl
  | ⟨1, _⟩ => rfl
  | ⟨2, _⟩ => rfl

/-- Two pieces laid side by side along the LAST axis, read at (p, q, r): the first piece while `r` is below its
    extent `a2`, the second piece at `r - a2` from there on. -/
theorem concat_axis2_apply {n0 n1 a2 b2 c2 : ℕ} (x₁ : (⟨3, ![n0, n1, a2]⟩ : Shape).Idx → α)
    (x₂ : (⟨3, ![n0, n1, b2]⟩ : Shape).Idx → α) (hc : a2 + b2 = c2)
    (h : Shape.Concatenates [(⟨3, ![n0, n1, a2]⟩ : Shape), ⟨3, ![n0, n1, b2]⟩] ⟨3, ![n0, n1, c2]⟩ (2 : Fin 3))
    (p : Fin n0) (q : Fin n1) (r : Fin c2) :
    concatenate (⟨3, ![n0, n1, c2]⟩ : Shape) (2 : Fin 3) [⟨⟨3, ![n0, n1, a2]⟩, x₁⟩, ⟨⟨3, ![n0, n1, b2]⟩, x₂⟩] h (ix3 p q r)
      = if hr : r.val < a2 then x₁ (ix3 p q ⟨r.val, hr⟩)
        else x₂ (ix3 p q ⟨r.val - a2, by have := r.isLt; omega⟩) := by
  by_cases hr : r.val < a2
  · rw [dif_pos hr]
    refine concatenate_pair_apply_left (2 : Fin 3) x₁ x₂ h (ix3 p q r) rfl _ (fun b => ?_)
    match b with
    | ⟨0, _⟩ => rfl
    | ⟨1, _⟩ => rfl
    | ⟨2, _⟩ => rfl
  · rw [dif_neg hr]
    refine concatenate_pair_apply_right (2 : Fin 3) x₁ x₂ h (ix3 p q r) rfl rfl _ (fun b hb => ?_) ?_
    · match b with
      | ⟨0, _⟩ => rfl
      | ⟨1, _⟩ => rfl
      | ⟨2, _⟩ => exact absurd rfl hb
    · show r.val - a2 + a2 = r.val
      omega

/-- Two pieces stacked along the MIDDLE axis, read at (p, q, r): the first piece while `q` is below its extent
    `a1`, the second piece at `q - a1` from there on. -/
theorem concat_axis1_apply {n0 a1 b1 c1 n2 : ℕ} (x₁ : (⟨3, ![n0, a1, n2]⟩ : Shape).Idx → α)
    (x₂ : (⟨3, ![n0, b1, n2]⟩ : Shape).Idx → α) (hc : a1 + b1 = c1)
    (h : Shape.Concatenates [(⟨3, ![n0, a1, n2]⟩ : Shape), ⟨3, ![n0, b1, n2]⟩] ⟨3, ![n0, c1, n2]⟩ (1 : Fin 3))
    (p : Fin n0) (q : Fin c1) (r : Fin n2) :
    concatenate (⟨3, ![n0, c1, n2]⟩ : Shape) (1 : Fin 3) [⟨⟨3, ![n0, a1, n2]⟩, x₁⟩, ⟨⟨3, ![n0, b1, n2]⟩, x₂⟩] h (ix3 p q r)
      = if hq : q.val < a1 then x₁ (ix3 p ⟨q.val, hq⟩ r)
        else x₂ (ix3 p ⟨q.val - a1, by have := q.isLt; omega⟩ r) := by
  by_cases hq : q.val < a1
  · rw [dif_pos hq]
    refine concatenate_pair_apply_left (1 : Fin 3) x₁ x₂ h (ix3 p q r) rfl _ (fun b => ?_)
    match b with
    | ⟨0, _⟩ => rfl
    | ⟨1, _⟩ => rfl
    | ⟨2, _⟩ => rfl
  · rw [dif_neg hq]
    refine concatenate_pair_apply_right (1 : Fin 3) x₁ x₂ h (ix3 p q r) rfl rfl _ (fun b hb => ?_) ?_
    · match b with
      | ⟨0, _⟩ => rfl
      | ⟨1, _⟩ => exact absurd rfl hb
      | ⟨2, _⟩ => rfl
    · show q.val - a1 + a1 = q.val
      omega

end Idealize.ShloMosaic.LayoutRead3

end
-- ==== Proof.KerPayload.lean ====
/-
  What the kernel body computes from one 1 × 1024 × 1024 block, as two five-tap filters.  The block gets 128 columns
  of zeros appended on the right (`wcat`); the windows at the column offsets 0 … 4 of the widened block are added with
  the weights 1, 2, 3/2, 1/2, 1/16 (`wpass`).  The result gets 8 rows of zeros appended below (`hcat`) and the windows
  at the row offsets 0 … 4 are added with the same weights (`hpass`).  The body's stored value is `hpass (wpass block)`
  (`pay_eq`).  On a block of real numbers that vanishes outside the picture the first filter is the real row filter
  `Wp` and the second the real column filter `Hp` (`wpass_rep`, `hpass_rep`, `pay_rep`): an entry read from the
  appended zeros is an entry where the real array is zero anyway.
-/
import proofs.«157636_j52261162058495_2_alg».proof.Proof.Gen.KernelIdeal.Skeleton
import proofs.«157636_j52261162058495_2_alg».proof.Proof.Rep
import proofs.«157636_j52261162058495_2_alg».proof.Proof.Consts
import proofs.«157636_j52261162058495_2_alg».proof.Proof.LibLayoutRead
import Idealize.ShloMosaic.Lib.Pipeline.Value
import Idealize.ShloMosaic.Lib.ValueIdx

noncomputable section

namespace Cert.KernelIdeal.KerValue

open Cert.KernelIdeal Cert.KernelIdeal.Gen Idealize.ShloMosaic Idealize.ShloMosaic.ValueIdx
open Idealize.ShloMosaic.LayoutRead3 Cert.Stencil

/-- The block with 128 columns of zeros appended on the right. -/
def wcat (b : FVec Ideal S1x1024x1024 .f32) : FVec Ideal S1x1024x1152 .f32 :=
  concatenate S1x1024x1152 2 [⟨S1x1024x1024, b⟩,
    ⟨S1x1024x128, broadcast S1x1024x128 (Scalar.sitofp (F := Ideal) .f32 (0#32 : BitVec 32))⟩]
    concatenates_S1x1024x1024_S1x1024x128_S1x1024x1152_d2

/-- The five taps along a row: the windows of the widened block at the column offsets 0 … 4, weighted and added. -/
def wpass (b : FVec Ideal S1x1024x1024 .f32) : FVec Ideal S1x1024x1024 .f32 :=
  addf (F := Ideal) (addf (F := Ideal) (addf (F := Ideal) (addf (F := Ideal)
    (extractStridedSlice S1x1024x1024 ![0, 0, 0] (wcat b) slices_S1x1024x1152_o0_0_0_S1x1024x1024)
    (mulf (F := Ideal) (broadcast S1x1024x1024 (Scalar.ofBits (F := Ideal) .f32 0x40000000#32))
      (extractStridedSlice S1x1024x1024 ![0, 0, 1] (wcat b) slices_S1x1024x1152_o0_0_1_S1x1024x1024)))
    (mulf (F := Ideal) (broadcast S1x1024x1024 (Scalar.ofBits (F := Ideal) .f32 0x3FC00000#32))
      (extractStridedSlice S1x1024x1024 ![0, 0, 2] (wcat b) slices_S1x1024x1152_o0_0_2_S1x1024x1024)))
    (mulf (F := Ideal) (broadcast S1x1024x1024 (Scalar.ofBits (F := Ideal) .f32 0x3F000000#32))
      (extractStridedSlice S1x1024x1024 ![0, 0, 3] (wcat b) slices_S1x1024x1152_o0_0_3_S1x1024x1024)))
    (mulf (F := Ideal) (broadcast S1x1024x1024 (Scalar.ofBits (F := Ideal) .f32 0x3D800000#32))
      (extractStridedSlice S1x1024x1024 ![0, 0, 4] (wcat b) slices_S1x1024x1152_o0_0_4_S1x1024x1024))

/-- The row-filtered block with 8 rows of zeros appended below. -/
def hcat (t : FVec Ideal S1x1024x1024 .f32) : FVec Ideal S1x1032x1024 .f32 :=
  concatenate S1x1032x1024 1 [⟨S1x1024x1024, t⟩,
    ⟨S1x8x1024, broadcast S1x8x1024 (Scalar.sitofp (F := Ideal) .f32 (0#32 : BitVec 32))⟩]
    concatenates_S1x1024x1024_S1x8x1024_S1x1032x1024_d1

/-- The five taps down a column: the windows of the heightened block at the row offsets 0 … 4, weighted and added. -/
def hpass (t : FVec Ideal S1x1024x1024 .f32) : FVec Ideal S1x1024x1024 .f32 :=
  addf (F := Ideal) (addf (F := Ideal) (addf (F := Ideal) (addf (F := Ideal)
    (extractStridedSlice S1x1024x1024 ![0, 0, 0] (hcat t) slices_S1x1032x1024_o0_0_0_S1x1024x1024)
    (mulf (F := Ideal) (broadcast S1x1024x1024 (Scalar.ofBits (F := Ideal) .f32 0x40000000#32))
      (extractStridedSlice S1x1024x1024 ![0, 1, 0] (hcat t) slices_S1x1032x1024_o0_1_0_S1x1024x1024)))
    (mulf (F := Ideal) (broadcast S1x1024x1024 (Scalar.ofBits (F := Ideal) .f32 0x3FC00000#32))
      (extractStridedSlice S1x1024x1024 ![0, 2, 0] (hcat t) slices_S1x1032x1024_o0_2_0_S1x1024x1024)))
    (mulf (F := Ideal) (broadcast S1x1024x1024 (Scalar.ofBits (F := Ideal) .f32 0x3F000000#32))
      (extractStridedSlice S1x1024x1024 ![0, 3, 0] (hcat t) slices_S1x1032x1024_o0_3_0_S1x1024x1024)))
    (mulf (F := Ideal) (broadcast S1x1024x1024 (Scalar.ofBits (F := Ideal) .f32 0x3D800000#32))
      (extractStridedSlice S1x1024x1024 ![0, 4, 0] (hcat t) slices_S1x1032x1024_o0_4_0_S1x1024x1024))

/-- The value the body stores is the column filter of the row filter of the block it loaded. -/
theorem pay_eq (b : Vec Ideal S1x1024x1024 .f32) : k0_pay1 (F := Ideal) b = hpass (wpass b) := rfl

/-- The widened block holds the same real array: on the appended columns the real array is zero already. -/
theorem wcat_rep (b : FVec Ideal S1x1024x1024 .f32) (B : ℕ → ℕ → ℕ → ℝ) (hB : Rep b B) (hS : Supp B) :
    Rep (wcat b) B := by
  intro p q r
  unfold wcat
  refine (concat_axis2_apply b _ (by norm_num) _ p q r).trans ?_
  by_cases hr : r.val < 1024
  · rw [dif_pos hr]
    exact hB p q ⟨r.val, hr⟩
  · rw [dif_neg hr]
    have hz : B p.val q.val r.val = 0 := hS _ _ _ (Or.inr (by omega))
    rw [hz]
    exact Consts.sitofp_zero

/-- The heightened block holds the same real array, provided that array is zero from row 1024 on. -/
theorem hcat_rep (t : FVec Ideal S1x1024x1024 .f32) (T : ℕ → ℕ → ℕ → ℝ) (hT : Rep t T)
    (hrow : ∀ n i j, 1024 ≤ i → T n i j = 0) : Rep (hcat t) T := by
  intro p q r
  unfold hcat
  refine (concat_axis1_apply t _ (by norm_num) _ p q r).trans ?_
  by_cases hq : q.val < 1024
  · rw [dif_pos hq]
    exact hT p ⟨q.val, hq⟩ r
  · rw [dif_neg hq]
    have hz : T p.val q.val r.val = 0 := hrow _ _ _ (by omega)
    rw [hz]
    exact Consts.sitofp_zero

/-- A splat of a scalar constant reads the constant's value everywhere. -/
theorem splat_apply (w : BitVec 32) (i : S1x1024x1024.Idx) :
    broadcast S1x1024x1024 (Scalar.ofBits (F := Ideal) .f32 w) i = Ideal.ofBits .f32 w := rfl

/-- The body's row filter on a block of reals that vanishes outside the picture is the real row filter. -/
theorem wpass_rep (b : FVec Ideal S1x1024x1024 .f32) (B : ℕ → ℕ → ℕ → ℝ) (hB : Rep b B) (hS : Supp B) :
    Rep (wpass b) (Wp B) := by
  intro p q r
  have hC := wcat_rep b B hB hS
  have hr := r.isLt
  have e0 : extractStridedSlice S1x1024x1024 ![0, 0, 0] (wcat b) slices_S1x1024x1152_o0_0_0_S1x1024x1024 (ix3 p q r)
      = ((B p.val q.val r.val : ℝ) : EReal) :=
    (extractStridedSlice_apply _ _ _ (ix3 p q r) (ix3 p q ⟨r.val, by omega⟩) (fun d => match d with
      | ⟨0, _⟩ => by show p.val = 0 + p.val; omega
      | ⟨1, _⟩ => by show q.val = 0 + q.val; omega
      | ⟨2, _⟩ => by show r.val = 0 + r.val; omega)).trans (hC _ _ _)
  have e1 : extractStridedSlice S1x1024x1024 ![0, 0, 1] (wcat b) slices_S1x1024x1152_o0_0_1_S1x1024x1024 (ix3 p q r)
      = ((B p.val q.val (r.val + 1) : ℝ) : EReal) :=
    (extractStridedSlice_apply _ _ _ (ix3 p q r) (ix3 p q ⟨r.val + 1, by omega⟩) (fun d => match d with
      | ⟨0, _⟩ => by show p.val = 0 + p.val; omega
      | ⟨1, _⟩ => by show q.val = 0 + q.val; omega
      | ⟨2, _⟩ => by show r.val + 1 = 1 + r.val; omega)).trans (hC _ _ _)
  have e2 : extractStridedSlice S1x1024x1024 ![0, 0, 2] (wcat b) slices_S1x1024x1152_o0_0_2_S1x1024x1024 (ix3 p q r)
      = ((B p.val q.val (r.val + 2) : ℝ) : EReal) :=
    (extractStridedSlice_apply _ _ _ (ix3 p q r) (ix3 p q ⟨r.val + 2, by omega⟩) (fun d => match d with
      | ⟨0, _⟩ => by show p.val = 0 + p.val; omega
      | ⟨1, _⟩ => by show q.val = 0 + q.val; omega
      | ⟨2, _⟩ => by show r.val + 2 = 2 + r.val; omega)).trans (hC _ _ _)
  have e3 : extractStridedSlice S1x1024x1024 ![0, 0, 3] (wcat b) slices_S1x1024x1152_o0_0_3_S1x1024x1024 (ix3 p q r)
      = ((B p.val q.val (r.val + 3) : ℝ) : EReal) :=
    (extractStridedSlice_apply _ _ _ (ix3 p q r) (ix3 p q ⟨r.val + 3, by omega⟩) (fun d => match d with
      | ⟨0, _⟩ => by show p.val = 0 + p.val; omega
      | ⟨1, _⟩ => by show q.val = 0 + q.val; omega
      | ⟨2, _⟩ => by show r.val + 3 = 3 + r.val; omega)).trans (hC _ _ _)
  have e4 : extractStridedSlice S1x1024x1024 ![0, 0, 4] (wcat b) slices_S1x1024x1152_o0_0_4_S1x1024x1024 (ix3 p q r)
      = ((B p.val q.val (r.val + 4) : ℝ) : EReal) :=
    (extractStridedSlice_apply _ _ _ (ix3 p q r) (ix3 p q ⟨r.val + 4, by omega⟩) (fun d => match d with
      | ⟨0, _⟩ => by show p.val = 0 + p.val; omega
      | ⟨1, _⟩ => by show q.val = 0 + q.val; omega
      | ⟨2, _⟩ => by show r.val + 4 = 4 + r.val; omega)).trans (hC _ _ _)
  unfold wpass
  simp only [addf_apply, mulf_apply]
  rw [e0, e1, e2, e3, e4, splat_apply, splat_apply, splat_apply, splat_apply, Consts.ofBits_two,
    Consts.ofBits_three_halves, Consts.ofBits_half, Consts.ofBits_sixteenth]
  simp only [Wp, EReal.coe_add, EReal.coe_mul]

/-- The body's column filter on a block of reals that is zero from row 1024 on is the real column filter. -/
theorem hpass_rep (t : FVec Ideal S1x1024x1024 .f32) (T : ℕ → ℕ → ℕ → ℝ) (hT : Rep t T)
    (hrow : ∀ n i j, 1024 ≤ i → T n i j = 0) : Rep (hpass t) (Hp T) := by
  intro p q r
  have hC := hcat_rep t T hT hrow
  have hq := q.isLt
  have e0 : extractStridedSlice S1x1024x1024 ![0, 0, 0] (hcat t) slices_S1x1032x1024_o0_0_0_S1x1024x1024 (ix3 p q r)
      = ((T p.val q.val r.val : ℝ) : EReal) :=
    (extractStridedSlice_apply _ _ _ (ix3 p q r) (ix3 p ⟨q.val, by omega⟩ r) (fun d => match d with
      | ⟨0, _⟩ => by show p.val = 0 + p.val; omega
      | ⟨1, _⟩ => by show q.val = 0 + q.val; omega
      | ⟨2, _⟩ => by show r.val = 0 + r.val; omega)).trans (hC _ _ _)
  have e1 : extractStridedSlice S1x1024x1024 ![0, 1, 0] (hcat t) slices_S1x1032x1024_o0_1_0_S1x1024x1024 (ix3 p q r)
      = ((T p.val (q.val + 1) r.val : ℝ) : EReal) :=
    (extractStridedSlice_apply _ _ _ (ix3 p q r) (ix3 p ⟨q.val + 1, by omega⟩ r) (fun d => match d with
      | ⟨0, _⟩ => by show p.val = 0 + p.val; omega
      | ⟨1, _⟩ => by show q.val + 1 = 1 + q.val; omega
      | ⟨2, _⟩ => by show r.val = 0 + r.val; omega)).trans (hC _ _ _)
  have e2 : extractStridedSlice S1x1024x1024 ![0, 2, 0] (hcat t) slices_S1x1032x1024_o0_2_0_S1x1024x1024 (ix3 p q r)
      = ((T p.val (q.val + 2) r.val : ℝ) : EReal) :=
    (extractStridedSlice_apply _ _ _ (ix3 p q r) (ix3 p ⟨q.val + 2, by omega⟩ r) (fun d => match d with
      | ⟨0, _⟩ => by show p.val = 0 + p.val; omega
      | ⟨1, _⟩ => by show q.val + 2 = 2 + q.val; omega
      | ⟨2, _⟩ => by show r.val = 0 + r.val; omega)).trans (hC _ _ _)
  have e3 : extractStridedSlice S1x1024x1024 ![0, 3, 0] (hcat t) slices_S1x1032x1024_o0_3_0_S1x1024x1024 (ix3 p q r)
      = ((T p.val (q.val + 3) r.val : ℝ) : EReal) :=
    (extractStridedSlice_apply _ _ _ (ix3 p q r) (ix3 p ⟨q.val + 3, by omega⟩ r) (fun d => match d with
      | ⟨0, _⟩ => by show p.val = 0 + p.val; omega
      | ⟨1, _⟩ => by show q.val + 3 = 3 + q.val; omega
      | ⟨2, _⟩ => by show r.val = 0 + r.val; omega)).trans (hC _ _ _)
  have e4 : extractStridedSlice S1x1024x1024 ![0, 4, 0] (hcat t) slices_S1x1032x1024_o0_4_0_S1x1024x1024 (ix3 p q r)
      = ((T p.val (q.val + 4) r.val : ℝ) : EReal) :=
    (extractStridedSlice_apply _ _ _ (ix3 p q r) (ix3 p ⟨q.val + 4, by omega⟩ r) (fun d => match d with
      | ⟨0, _⟩ => by show p.val = 0 + p.val; omega
      | ⟨1, _⟩ => by show q.val + 4 = 4 + q.val; omega
      | ⟨2, _⟩ => by show r.val = 0 + r.val; omega)).trans (hC _ _ _)
  unfold hpass
  simp only [addf_apply, mulf_apply]
  rw [e0, e1, e2, e3, e4, splat_apply, splat_apply, splat_apply, splat_apply, Consts.ofBits_two,
    Consts.ofBits_three_halves, Consts.ofBits_half, Consts.ofBits_sixteenth]
  simp only [Hp, EReal.coe_add, EReal.coe_mul]

/-- The value the body stores, on a block of reals that vanishes outside the picture: the real column filter of the
    real row filter of the block. -/
theorem pay_rep (b : FVec Ideal S1x1024x1024 .f32) (B : ℕ → ℕ → ℕ → ℝ) (hB : Rep b B) (hS : Supp B) :
    Rep (k0_pay1 (F := Ideal) b) (Hp (Wp B)) := by
  rw [pay_eq]
  exact hpass_rep _ _ (wpass_rep b B hB hS) (Wp_rows hS)

/-- Image `n` of a 32 × 1024 × 1024 array, as one 1 × 1024 × 1024 block. -/
def image {F : FTy → Type} (x : S32x1024x1024.Idx → Elt F .f32) (n : Fin 32) : Vec F S1x1024x1024 .f32 :=
  fun y => x (ix3 (n0 := 32) (n1 := 1024) (n2 := 1024) n (y 1) (y 2))

/-- The kernel's result as one function of the argument array: entry (n, i, j) is entry (0, i, j) of what the body
    stores for image `n`. -/
def G {F : FTy → Type} [FloatOps F] (x : S32x1024x1024.Idx → Elt F .f32) : S32x1024x1024.Idx → Elt F .f32 :=
  fun i => k0_pay1 (image x (i 0)) (ix3 (n0 := 1) (n1 := 1024) (n2 := 1024) 0 (i 1) (i 2))

/-- On an array of reals that vanishes outside the picture, the kernel's result is the real column filter of the real
    row filter: each image is filtered by itself. -/
theorem G_rep (x : FVec Ideal S32x1024x1024 .f32) (X : ℕ → ℕ → ℕ → ℝ) (hx : Rep x X) (hS : Supp X) :
    Rep (G (F := Ideal) x) (Hp (Wp X)) := by
  intro p q r
  have hb : Rep (image (F := Ideal) x p) (fun _ => X p.val) := fun _ q' r' => hx p q' r'
  have hs : Supp (fun _ => X p.val) := fun _ i j h => hS p.val i j h
  exact pay_rep (image (F := Ideal) x p) _ hb hs 0 q r

end Cert.KernelIdeal.KerValue

end
-- ==== Proof.KerFinal.lean ====
/-
  From the kernel's 32 grid points to its result array.  Grid point `t` loads image `t` of the argument — block
  index (t, 0, 0) of blocks of 1 × 1024 × 1024 — and writes what the body stores back to image `t` of the result,
  so what it writes back is block `t` of the one function `G` of the argument (`flushed_eq`); the 32 blocks cover the
  result array, image `n` being covered by point `n` (`cover`); hence the array ends holding `G` of the argument
  (`final`, `run`).
-/
import proofs.«157636_j52261162058495_2_alg».proof.Proof.Gen.KernelIdeal.Value
import proofs.«157636_j52261162058495_2_alg».proof.Proof.KerPayload
import Idealize.ShloMosaic.Lib.Pipeline.Value
import Idealize.ShloMosaic.Lib.ValueIdx

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl

/-- The two index maps, decided over the 32 grid points: point `t` reads and writes block (t, 0, 0). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- What point `t` writes back is block `t` of `G` of the argument array as the region finds it. -/
theorem flushed_eq (c : Dev nD) (t : Fin cfg0.N) :
    (dats m 0 c).flushed 1 t = ((cfg0.win 1).blk t).view.read (Elt F) (G (V m c main_arg0)) := by
  rw [Cert.KernelIdeal.Value.flushed1]
  unfold out0_1
  rw [View.canon_unit_zero hz3]
  simp only [View.ld_unit_zero (S := S1x1024x1024) hz3]
  obtain ⟨e0, e1, e2, f0, f1, f2⟩ := idx_facts t
  funext j
  show k0_pay1 (iblk m c 0 t) j
    = k0_pay1 (image (V m c main_arg0) ((((cfg0.win 1).blk t).view.emb j) 0))
        (ix3 (n0 := 1) (n1 := 1024) (n2 := 1024) 0 ((((cfg0.win 1).blk t).view.emb j) 1) ((((cfg0.win 1).blk t).view.emb j) 2))
  have hj0 : (j 0).val < 1 := (j 0).isLt
  have hb : iblk m c 0 t = image (V m c main_arg0) ((((cfg0.win 1).blk t).view.emb j) 0) := by
    funext y
    have hy0 : (y 0).val < 1 := (y 0).isLt
    show V m c main_arg0 (((cfg0.win 0).blk t).view.emb y)
      = V m c main_arg0 (ix3 (n0 := 32) (n1 := 1024) (n2 := 1024) ((((cfg0.win 1).blk t).view.emb j) 0) (y 1) (y 2))
    refine congrArg _ (funext fun a => Fin.ext ?_)
    match a with
    | ⟨0, _⟩ =>
      show win0_0.index t (0 : Fin 3) * 1 + 1 * (y 0).val = win0_1.index t (0 : Fin 3) * 1 + 1 * (j 0).val
      omega
    | ⟨1, _⟩ =>
      show win0_0.index t (1 : Fin 3) * 1024 + 1 * (y 1).val = (y 1).val
      omega
    | ⟨2, _⟩ =>
      show win0_0.index t (2 : Fin 3) * 1024 + 1 * (y 2).val = (y 2).val
      omega
  have hj : j = ix3 (n0 := 1) (n1 := 1024) (n2 := 1024) 0 ((((cfg0.win 1).blk t).view.emb j) 1)
      ((((cfg0.win 1).blk t).view.emb j) 2) := by
    funext a
    apply Fin.ext
    match a with
    | ⟨0, _⟩ =>
      show (j 0).val = 0
      omega
    | ⟨1, _⟩ =>
      show (j 1).val = win0_1.index t (1 : Fin 3) * 1024 + 1 * (j 1).val
      omega
    | ⟨2, _⟩ =>
      show (j 2).val = win0_1.index t (2 : Fin 3) * 1024 + 1 * (j 2).val
      omega
  rw [hb]
  exact congrArg _ hj

/-- An index of the result array is in point `t`'s block iff each coordinate is in the block's range on its axis. -/
theorem mem_blk (t : Fin cfg0.N) (i : S32x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v0).slice (win0_1.rect t)).set ↔ _
  rw [View.set_slice_whole, Rect.mem_set_unit]
  exact Iff.rfl

/-- Every index of the result array is in some point's block: image `n` is point `n`'s. -/
theorem cover (i : S32x1024x1024.Idx) :
    ∃ t : Fin cfg0.N, (cfg0.win 1).flush t = true ∧ i ∈ ((cfg0.win 1).blk t).view.set := by
  have hN : cfg0.N = 32 := N_0
  have hi0 : (i 0).val < 32 := (i 0).isLt
  have hi1 : (i 1).val < 1024 := (i 1).isLt
  have hi2 : (i 2).val < 1024 := (i 2).isLt
  have ht : (i 0).val < cfg0.N := by rw [hN]; exact hi0
  refine ⟨⟨(i 0).val, ht⟩, flush0_1 _, ?_⟩
  rw [mem_blk]
  obtain ⟨-, -, -, f0, f1, f2⟩ := idx_facts ⟨(i 0).val, ht⟩
  have f0' : win0_1.index ⟨(i 0).val, ht⟩ (0 : Fin 3) = (i 0).val := f0
  intro a
  match a with
  | ⟨0, _⟩ =>
    show win0_1.index ⟨(i 0).val, ht⟩ (0 : Fin 3) * 1 ≤ (i 0).val
      ∧ (i 0).val < win0_1.index ⟨(i 0).val, ht⟩ (0 : Fin 3) * 1 + 1
    omega
  | ⟨1, _⟩ =>
    show win0_1.index ⟨(i 0).val, ht⟩ (1 : Fin 3) * 1024 ≤ (i 1).val
      ∧ (i 1).val < win0_1.index ⟨(i 0).val, ht⟩ (1 : Fin 3) * 1024 + 1024
    omega
  | ⟨2, _⟩ =>
    show win0_1.index ⟨(i 0).val, ht⟩ (2 : Fin 3) * 1024 ≤ (i 2).val
      ∧ (i 2).val < win0_1.index ⟨(i 0).val, ht⟩ (2 : Fin 3) * 1024 + 1024
    omega

/-- The result array after the run is `G` of the argument array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The kernel's run: the result array ends at `G` of the argument, the argument unchanged. -/
theorem run : θ_run defs (onTc (τ := τ) (main (F := F))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.KerValue

end
-- ==== Proof.RefStage.lean ====
/-
  The reference, one stencil step at a time.  A step pads the 32 × 1024 × 1024 array with one row of zeros below and
  one column of zeros to the right, cuts the four 1024 × 1024 windows at the offsets (0,0), (0,1), (1,0), (1,1) out of
  the padded array and adds them with the weights 1, ½, ½, ¼ (`stage`).  On an array of real numbers that vanishes
  outside the picture this is the real stencil step `St` (`stage_rep`): a window entry that falls on the padding reads
  the zero that the real array has there anyway.  Reversing the order of the images is `Rv` (`reverse_rep`).  The whole
  reference is four steps with a reversal after the first and after the third (`reference`, `reference_rep`).
-/
import proofs.«157636_j52261162058495_2_alg».proof.Proof.Gen.ReferenceIdeal
import proofs.«157636_j52261162058495_2_alg».proof.Proof.Rep
import proofs.«157636_j52261162058495_2_alg».proof.Proof.Consts
import proofs.«157636_j52261162058495_2_alg».proof.Proof.LibLayoutRead
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx
open Idealize.ShloMosaic.LayoutRead3 Cert.Stencil

/-- The array with one row of zeros appended below and one column of zeros appended to the right of every image. -/
def padded (a : FVec Ideal S32x1024x1024 .f32) : FVec Ideal S32x1025x1025 .f32 :=
  pad S32x1025x1025 ![0, 0, 0] ![0, 1, 1] ![0, 0, 0] a (sitofp (F := Ideal) .f32 (constantI S_ 32 0#32))
    pads_S32x1024x1024_S32x1025x1025_000_010_010 h_S_

/-- One stencil step as the reference computes it: the four shifted windows of the padded array, weighted and added. -/
def stage (a : FVec Ideal S32x1024x1024 .f32) : FVec Ideal S32x1024x1024 .f32 :=
  addf (F := Ideal) (addf (F := Ideal) (addf (F := Ideal)
    (extractStridedSlice S32x1024x1024 ![0, 0, 0] (padded a) slices_S32x1025x1025_S32x1024x1024_0_0_0)
    (mulf (F := Ideal) (broadcastInDim S32x1024x1024 ![] bcast_S_S32x1024x1024 (constant (F := Ideal) S_ .f32 0x3F000000#32))
      (extractStridedSlice S32x1024x1024 ![0, 0, 1] (padded a) slices_S32x1025x1025_S32x1024x1024_0_0_1)))
    (mulf (F := Ideal) (broadcastInDim S32x1024x1024 ![] bcast_S_S32x1024x1024 (constant (F := Ideal) S_ .f32 0x3F000000#32))
      (extractStridedSlice S32x1024x1024 ![0, 1, 0] (padded a) slices_S32x1025x1025_S32x1024x1024_0_1_0)))
    (mulf (F := Ideal) (broadcastInDim S32x1024x1024 ![] bcast_S_S32x1024x1024 (constant (F := Ideal) S_ .f32 0x3E800000#32))
      (extractStridedSlice S32x1024x1024 ![0, 1, 1] (padded a) slices_S32x1025x1025_S32x1024x1024_0_1_1))

/-- The whole reference: four steps, the images reversed after the first and after the third. -/
def reference (x : FVec Ideal S32x1024x1024 .f32) : FVec Ideal S32x1024x1024 .f32 :=
  stage (Host.reverse [0] (stage (stage (Host.reverse [0] (stage x)))))

/-- The padded array holds the same real array: on the appended row and column the real array is zero already. -/
theorem padded_rep (a : FVec Ideal S32x1024x1024 .f32) (A : ℕ → ℕ → ℕ → ℝ) (hA : Rep a A) (hS : Supp A) :
    Rep (padded a) A := by
  intro p q r
  unfold padded
  refine (pad_trailing3_apply _ a _ _ _ p q r).trans ?_
  by_cases hin : p.val < 32 ∧ q.val < 1024 ∧ r.val < 1024
  · rw [dif_pos hin]
    exact hA ⟨p.val, hin.1⟩ ⟨q.val, hin.2.1⟩ ⟨r.val, hin.2.2⟩
  · rw [dif_neg hin]
    have hz : A p.val q.val r.val = 0 := hS _ _ _ (by have := p.isLt; omega)
    rw [hz]
    exact Consts.sitofp_zero

/-- A splat of a scalar constant reads the constant everywhere. -/
theorem splat_apply (w : BitVec 32) (i : S32x1024x1024.Idx) :
    broadcastInDim S32x1024x1024 ![] bcast_S_S32x1024x1024 (constant (F := Ideal) S_ .f32 w) i = Ideal.ofBits .f32 w :=
  broadcastInDim_apply _ bcast_S_S32x1024x1024 _ i (fun d => d.elim0) (fun d => d.elim0)

/-- One step of the reference on an array of reals that vanishes outside the picture is the real stencil step. -/
theorem stage_rep (a : FVec Ideal S32x1024x1024 .f32) (A : ℕ → ℕ → ℕ → ℝ) (hA : Rep a A) (hS : Supp A) :
    Rep (stage a) (St A) := by
  intro p q r
  have hP := padded_rep a A hA hS
  have hq := q.isLt
  have hr := r.isLt
  have e1 : extractStridedSlice S32x1024x1024 ![0, 0, 0] (padded a) slices_S32x1025x1025_S32x1024x1024_0_0_0 (ix3 p q r)
      = ((A p.val q.val r.val : ℝ) : EReal) :=
    (extractStridedSlice_apply _ _ _ (ix3 p q r) (ix3 p ⟨q.val, by omega⟩ ⟨r.val, by omega⟩) (fun d => match d with
      | ⟨0, _⟩ => by show p.val = 0 + p.val; omega
      | ⟨1, _⟩ => by show q.val = 0 + q.val; omega
      | ⟨2, _⟩ => by show r.val = 0 + r.val; omega)).trans (hP _ _ _)
  have e2 : extractStridedSlice S32x1024x1024 ![0, 0, 1] (padded a) slices_S32x1025x1025_S32x1024x1024_0_0_1 (ix3 p q r)
      = ((A p.val q.val (r.val + 1) : ℝ) : EReal) :=
    (extractStridedSlice_apply _ _ _ (ix3 p q r) (ix3 p ⟨q.val, by omega⟩ ⟨r.val + 1, by omega⟩) (fun d => match d with
      | ⟨0, _⟩ => by show p.val = 0 + p.val; omega
      | ⟨1, _⟩ => by show q.val = 0 + q.val; omega
      | ⟨2, _⟩ => by show r.val + 1 = 1 + r.val; omega)).trans (hP _ _ _)
  have e3 : extractStridedSlice S32x1024x1024 ![0, 1, 0] (padded a) slices_S32x1025x1025_S32x1024x1024_0_1_0 (ix3 p q r)
      = ((A p.val (q.val + 1) r.val : ℝ) : EReal) :=
    (extractStridedSlice_apply _ _ _ (ix3 p q r) (ix3 p ⟨q.val + 1, by omega⟩ ⟨r.val, by omega⟩) (fun d => match d with
      | ⟨0, _⟩ => by show p.val = 0 + p.val; omega
      | ⟨1, _⟩ => by show q.val + 1 = 1 + q.val; omega
      | ⟨2, _⟩ => by show r.val = 0 + r.val; omega)).trans (hP _ _ _)
  have e4 : extractStridedSlice S32x1024x1024 ![0, 1, 1] (padded a) slices_S32x1025x1025_S32x1024x1024_0_1_1 (ix3 p q r)
      = ((A p.val (q.val + 1) (r.val + 1) : ℝ) : EReal) :=
    (extractStridedSlice_apply _ _ _ (ix3 p q r) (ix3 p ⟨q.val + 1, by omega⟩ ⟨r.val + 1, by omega⟩) (fun d => match d with
      | ⟨0, _⟩ => by show p.val = 0 + p.val; omega
      | ⟨1, _⟩ => by show q.val + 1 = 1 + q.val; omega
      | ⟨2, _⟩ => by show r.val + 1 = 1 + r.val; omega)).trans (hP _ _ _)
  unfold stage
  simp only [addf_apply, mulf_apply]
  rw [e1, e2, e3, e4, splat_apply, splat_apply, Consts.ofBits_half, Consts.ofBits_quarter]
  simp only [St, EReal.coe_add, EReal.coe_mul]

/-- Reversing the images of an array of reals reverses the images of the real array. -/
theorem reverse_rep (a : FVec Ideal S32x1024x1024 .f32) (A : ℕ → ℕ → ℕ → ℝ) (hA : Rep a A) :
    Rep (Host.reverse [0] a) (Rv A) := by
  intro p q r
  refine (reverse_axis0_apply a p q r).trans ?_
  rw [hA p.rev q r, Fin.val_rev]
  rfl

/-- The reference on an array of reals that vanishes outside the picture: four real stencil steps, the images
    reversed after the first and after the third. -/
theorem reference_rep (x : FVec Ideal S32x1024x1024 .f32) (X : ℕ → ℕ → ℕ → ℝ) (hx : Rep x X) (hS : Supp X) :
    Rep (reference x) (St (Rv (St (St (Rv (St X)))))) := by
  unfold reference
  have h1 := stage_rep x X hx hS
  have s1 := St_supp hS
  have h2 := reverse_rep _ _ h1
  have s2 := Rv_supp s1
  have h3 := stage_rep _ _ h2 s2
  have s3 := St_supp s2
  have h4 := stage_rep _ _ h3 s3
  have s4 := St_supp s3
  have h5 := reverse_rep _ _ h4
  have s5 := Rv_supp s4
  exact stage_rep _ _ h5 s5

end Cert.ReferenceIdeal.RefValue

end
-- ==== Proof.RefValue.lean ====
/-
  The reference's run, read: the term its result buffer ends at — the composition of its 78 host operations — is
  the four-step function `reference` of the argument array, the same operations grouped step by step.
-/
import proofs.«157636_j52261162058495_2_alg».proof.Proof.RefRunPatched
import proofs.«157636_j52261162058495_2_alg».proof.Proof.RefStage

noncomputable section

namespace Cert.ReferenceIdeal.RefValue

open Cert.ReferenceIdeal Cert.ReferenceIdeal.Gen Idealize.ShloMosaic Idealize.ShloMosaic.TcCoe Idealize.SL.Sem

/-- The run's composed term is `reference` of the argument: the same operations, named step by step. -/
theorem res_eq (m : (ℓ : Loc nD τ sig) → Buf (Elt Ideal) ℓ) (c : Dev nD) :
    Cert.ReferenceIdeal.ValueP.res_main_v57 (F := Ideal) m c = reference (m ((c.tc : Thread nD τ).loc main_arg0)) := by
  unfold Cert.ReferenceIdeal.ValueP.res_main_v57
  rfl

/-- The reference's run: the result array ends at `reference` of the argument, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = reference (m ((c.tc : Thread nD τ).loc main_arg0))
      ∧ r.2.mem ((c.tc : Thread nD τ).loc main_arg0) = m ((c.tc : Thread nD τ).loc main_arg0) :=
  (θ_run defs _ _).mono (fun _ h c => ⟨(h c).1.trans (res_eq m c), (h c).2⟩)
    (Cert.ReferenceIdeal.ValueP.run (F := Ideal) m ρ)

end Cert.ReferenceIdeal.RefValue

end
-- ==== Proof.lean ====
/-
  The certificate: the stencil kernel against its reference, over the extended reals, under "every input entry is
  finite".

  The reference runs the 2 × 2 stencil  a(i,j) + ½ a(i,j+1) + ½ a(i+1,j) + ¼ a(i+1,j+1)  (zeros beyond the last row and
  column) four times over 32 images of 1024 × 1024 entries, reversing the order of the images after the first and
  after the third step.  The kernel handles one image per grid point and applies two five-tap filters to it, along the
  rows and then down the columns, with the weights 1, 2, 3/2, 1/2, 1/16.

  Why they agree: a step is (1 + ½ R)(1 + ½ D), R and D the shifts by one column and one row with zeros shifted in; it
  treats every image alike, so the two reversals cancel; R and D commute, so four steps are (1 + ½ R)⁴ (1 + ½ D)⁴; and
  (1 + ½ R)⁴ = 1 + 2R + 3/2 R² + 1/2 R³ + 1/16 R⁴ is the five-tap filter.  Expanding products over sums is only valid
  for real numbers (it fails at infinities), which is where the precondition is used: every entry of the input is a
  real number, so each side is computed in ℝ, and there the identity is a polynomial identity (`steps_eq_taps`).

  The modules: Stencil (the real-number identity), Rep (an extended-real array that is a real array), Finite (the
  precondition gives real entries), LibLayoutRead (pad, reverse and concatenate read at an index), RefStage and RefValue
  (the reference's result is the four real steps), KerPayload and KerFinal (the kernel's result is the two real filters),
  and below the five claims.
-/
import proofs.«157636_j52261162058495_2_alg».proof.Defs
import proofs.«157636_j52261162058495_2_alg».proof.Proof.Gen.Kernel
import proofs.«157636_j52261162058495_2_alg».proof.Proof.Gen.Kernel.Skeleton
import proofs.«157636_j52261162058495_2_alg».proof.Proof.Gen.Kernel.Launch
import proofs.«157636_j52261162058495_2_alg».proof.Proof.Gen.Kernel.Points
import proofs.«157636_j52261162058495_2_alg».proof.Proof.Gen.Kernel.Frame
import proofs.«157636_j52261162058495_2_alg».proof.Proof.Gen.KernelIdeal
import proofs.«157636_j52261162058495_2_alg».proof.Proof.Gen.KernelIdeal.Skeleton
import proofs.«157636_j52261162058495_2_alg».proof.Proof.Gen.KernelIdeal.Launch
import proofs.«157636_j52261162058495_2_alg».proof.Proof.Gen.KernelIdeal.Points
import proofs.«157636_j52261162058495_2_alg».proof.Proof.Gen.KernelIdeal.Frame
import proofs.«157636_j52261162058495_2_alg».proof.Proof.Gen.KernelIdeal.Value
import proofs.«157636_j52261162058495_2_alg».proof.Proof.Gen.ReferenceIdeal
import proofs.«157636_j52261162058495_2_alg».proof.Proof.Gen.Pre_finite_inputs
import proofs.«157636_j52261162058495_2_alg».proof.Proof.Stencil
import proofs.«157636_j52261162058495_2_alg».proof.Proof.Rep
import proofs.«157636_j52261162058495_2_alg».proof.Proof.Finite
import proofs.«157636_j52261162058495_2_alg».proof.Proof.KerPayload
import proofs.«157636_j52261162058495_2_alg».proof.Proof.KerFinal
import proofs.«157636_j52261162058495_2_alg».proof.Proof.RefStage
import proofs.«157636_j52261162058495_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Stencil

/-- On an array of real numbers the reference's four steps and the kernel's two filters give the same array: both
    are real arrays, equal entry by entry by the polynomial identity. -/
theorem result_eq (x : FVec Ideal Cert.KernelIdeal.S32x1024x1024 .f32) (hx : ∀ i, ∃ r : ℝ, x i = (r : EReal)) :
    Cert.ReferenceIdeal.RefValue.reference x = Cert.KernelIdeal.KerValue.G (F := Ideal) x := by
  funext i
  obtain ⟨p, q, r, rfl⟩ : ∃ (p : Fin 32) (q : Fin 1024) (r : Fin 1024), i = ix3 p q r := ⟨i 0, i 1, i 2, eq_ix3 i⟩
  have hX := rep_realPart x hx
  have hS := realPart_supp x
  rw [Cert.ReferenceIdeal.RefValue.reference_rep x _ hX hS p q r, Cert.KernelIdeal.KerValue.G_rep x _ hX hS p q r,
    steps_eq_taps _ _ _ _ p.isLt]

/-- The word-level kernel runs, faults nowhere and leaves its argument as it was. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its argument as it was: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Idealizing the kernel rewrote nothing, so there is nothing to preserve. -/
theorem preserves : Cert.preserves_Kernel_KernelIdeal := trivial

/-- From memories that agree on a finite input, the kernel's result array and the reference's are equal. -/
theorem algebraic : Cert.algebraic_KernelIdeal_ReferenceIdeal := by
  intro m ρ m' ρ' hpre hagree
  refine ⟨fun c => Cert.KernelIdeal.KerValue.G (F := Ideal) (m ((c.tc : Thread Cert.KernelIdeal.nD Cert.KernelIdeal.τ).loc Cert.KernelIdeal.main_arg0)),
    Cert.KernelIdeal.KerValue.run (F := Ideal) m ρ, ?_⟩
  refine (θ_run Cert.ReferenceIdeal.defs _ _).mono (fun _ h c => ⟨(h c).1.trans ?_, (h c).2⟩)
    (Cert.ReferenceIdeal.RefValue.run m' ρ')
  rw [hagree c]
  exact result_eq _ (fun i => real_of_pre _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
